-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 90
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S1x1, .f32⟩
  | .hbm, ⟨88, _⟩ => ⟨S100000x1, .f32⟩
  | .hbm, ⟨89, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's whole run, with its RESULT buffer named.

  The program is three matmul regions among stretches of host operations (the graph's edge
  normalisation, the two gather / scale / scatter-add aggregations with bias and relu, and the last
  reshape). The run is cut at every boundary between a stretch and a region; the buffer contents at
  each boundary are a fold from the launch memory: a stretch applies its operations in order, a
  region replaces its output array by what its write-backs leave and keeps every other buffer.
  This module runs @main through those boundaries and reads the final state at the result buffer
  as well as at the arguments: the result holds the last boundary's contents there, the arguments
  what they held at launch.
-/
import proofs.«126483_j13597866459795_1_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents, and each argument array ends as it was launched. -/
theorem run_result : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Outcome

end
-- ==== Proof.Payloads.lean ====
/-
  What each kernel body stores, read at one entry of its block, at the ideal values.

  The three bodies are matrix products of a block of rows with a whole weight matrix. Rounding the
  factors to bf16 is the identity at the ideal values, and a product accumulated into zero is the plain
  sum over the contracted coordinate; the third body then adds a one-entry bias, broadcast down the rows.
  So the stored value at (p, q) is  ∑ k, x (p, k) · w (k, q)  — plus b (0, 0) in the third body.
-/
import proofs.«126483_j13597866459795_1_alg».proof.Proof.Gen.KernelIdeal.Skeleton
import Idealize.ShloMosaic.Lib.ValueIdx
import Idealize.ShloMosaic.Lib.Pipeline.Value
import Idealize.ShloMosaic.PureOps.Ideal.Laws

set_option synthInstance.maxSize 4096

noncomputable section

namespace Cert.KernelIdeal.Payloads

open Cert.KernelIdeal Cert.KernelIdeal.Gen Idealize.ShloMosaic Idealize.SL.Sem

/-! ## The two products' coordinates: a [5000,128] block times a [128,128] matrix, and times a [128,1] column -/

theorem sq_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem sq_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem sq_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem sq_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `i`, `k`) of the left factor. -/
abbrev sq_l (i : S5000x128.Idx) (k : Fin 128) : S5000x128.Idx := fun a => match a with
  | ⟨0, _⟩ => ⟨(i 0).val, (i 0).isLt⟩
  | ⟨1, _⟩ => ⟨k.val, k.isLt⟩
/-- Entry (`k`, column of `i`) of the right factor. -/
abbrev sq_r (i : S5000x128.Idx) (k : Fin 128) : S128x128.Idx := fun a => match a with
  | ⟨0, _⟩ => ⟨k.val, k.isLt⟩
  | ⟨1, _⟩ => ⟨(i 1).val, (i 1).isLt⟩

/-- A matrix product into a zero accumulator, at the ideal values and at an entry `i` of the result: the sum over
    the contracted coordinate `k` of (row of `i`, `k`) of the left factor times (`k`, column of `i`) of the right. -/
theorem sq_sum (x : FVec Ideal S5000x128 .bf16) (w : FVec Ideal S128x128 .bf16) (i : S5000x128.Idx) :
    FloatOps.matmul dot_S5000x128_S128x128_S5000x128_1_0_0_1_n_n none x w (constant S5000x128 .f32 0x00000000#32) i
      = ∑ k : Fin 128, x (sq_l i k) * w (sq_r i k) := by
  refine (Ideal.matmul_constant_zero_apply dot_S5000x128_S128x128_S5000x128_1_0_0_1_n_n none x w i).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = sq_l i k := funext fun a => Fin.ext (by
    match a with
    | ⟨0, _⟩ => exact sq_lhs0 _ _
    | ⟨1, _⟩ => exact (sq_lhs1 _ _).trans hk)
  have er : dot_S5000x128_S128x128_S5000x128_1_0_0_1_n_n.rhsIdx i ((ValueIdx.contrEquiv1 dot_S5000x128_S128x128_S5000x128_1_0_0_1_n_n 128 rfl rfl).symm k) = sq_r i k := funext fun a => Fin.ext (by
    match a with
    | ⟨0, _⟩ => exact (sq_rhs0 _ _).trans hk
    | ⟨1, _⟩ => exact sq_rhs1 _ _)
  rw [el, er]

theorem col_lhs0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem col_lhs1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem col_rhs0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem col_rhs1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Entry (row of `i`, `k`) of the left factor. -/
abbrev col_l (i : S5000x1.Idx) (k : Fin 128) : S5000x128.Idx := fun a => match a with
  | ⟨0, _⟩ => ⟨(i 0).val, (i 0).isLt⟩
  | ⟨1, _⟩ => ⟨k.val, k.isLt⟩
/-- Entry (`k`, column of `i`) of the right factor. -/
abbrev col_r (i : S5000x1.Idx) (k : Fin 128) : S128x1.Idx := fun a => match a with
  | ⟨0, _⟩ => ⟨k.val, k.isLt⟩
  | ⟨1, _⟩ => ⟨(i 1).val, (i 1).isLt⟩

/-- A matrix product into a zero accumulator, at the ideal values and at an entry `i` of the result: the sum over
    the contracted coordinate `k` of (row of `i`, `k`) of the left factor times (`k`, column of `i`) of the right. -/
theorem col_sum (x : FVec Ideal S5000x128 .bf16) (w : FVec Ideal S128x1 .bf16) (i : S5000x1.Idx) :
    FloatOps.matmul dot_S5000x128_S128x1_S5000x1_1_0_0_1_n_n none x w (constant S5000x1 .f32 0x00000000#32) i
      = ∑ k : Fin 128, x (col_l i k) * w (col_r i k) := by
  refine (Ideal.matmul_constant_zero_apply dot_S5000x128_S128x1_S5000x1_1_0_0_1_n_n none x w i).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx i ((ValueIdx.contrEquiv1 dot_S5000x128_S128x1_S5000x1_1_0_0_1_n_n 128 rfl rfl).symm k) = col_l i k := funext fun a => Fin.ext (by
    match a with
    | ⟨0, _⟩ => exact col_lhs0 _ _
    | ⟨1, _⟩ => exact (col_lhs1 _ _).trans hk)
  have er : dot_S5000x128_S128x1_S5000x1_1_0_0_1_n_n.rhsIdx i ((ValueIdx.contrEquiv1 dot_S5000x128_S128x1_S5000x1_1_0_0_1_n_n 128 rfl rfl).symm k) = col_r i k := funext fun a => Fin.ext (by
    match a with
    | ⟨0, _⟩ => exact (col_rhs0 _ _).trans hk
    | ⟨1, _⟩ => exact col_rhs1 _ _)
  rw [el, er]

/-! ## The three stored values -/

/-- First body: the block's rows times the weight matrix. -/
theorem stored0 (x : Vec Ideal S5000x128 .f32) (w : Vec Ideal S128x128 .f32) (i : S5000x128.Idx) :
    k0_pay1 x w i = ∑ k : Fin 128, x (sq_l i k) * w (sq_r i k) := by
  unfold k0_pay1
  exact sq_sum _ _ i

/-- Second body: the same product (its reshape of the block to its own shape changes nothing). -/
theorem stored1 (x : Vec Ideal S5000x128 .f32) (w : Vec Ideal S128x128 .f32) (i : S5000x128.Idx) :
    k1_pay1 x w i = ∑ k : Fin 128, x (sq_l i k) * w (sq_r i k) := by
  unfold k1_pay1
  refine (sq_sum _ _ i).trans ?_
  refine Finset.sum_congr rfl fun k _ => ?_
  show (shapeCast S5000x128 x _) (sq_l i k) * w (sq_r i k) = _
  rw [shapeCast_self]

/-- The one entry of a [1,1] vector. -/
abbrev only : S1x1.Idx := fun a => match a with
  | ⟨0, _⟩ => ⟨0, Nat.one_pos⟩
  | ⟨1, _⟩ => ⟨0, Nat.one_pos⟩

/-- Third body: the block's rows times the weight column, plus the one-entry bias on every row. -/
theorem stored2 (x : Vec Ideal S5000x128 .f32) (w : Vec Ideal S128x1 .f32) (b : Vec Ideal S1x1 .f32) (i : S5000x1.Idx) :
    k2_pay1 x w b i = (∑ k : Fin 128, x (col_l i k) * w (col_r i k)) + b only := by
  unfold k2_pay1
  refine (ValueIdx.addf_apply (s := S5000x1) (φ := .f32) _ _ i).trans ?_
  refine congrArg₂ (· + ·) ((col_sum _ _ i).trans (Finset.sum_congr rfl fun k _ => ?_)) ?_
  · show (shapeCast S5000x128 x _) (col_l i k) * w (col_r i k) = _
    rw [shapeCast_self]
  · show (broadcastTo S5000x1 (shapeCast S1x1 b _) _) i = _
    rw [shapeCast_self]
    exact broadcastTo_apply b _ i only (fun a => match a with
      | ⟨0, _⟩ => by show 0 = if (1 : Nat) = 1 then 0 else _; rw [if_pos rfl]
      | ⟨1, _⟩ => by show 0 = if (1 : Nat) = 1 then 0 else _; rw [if_pos rfl])

end Cert.KernelIdeal.Payloads

end
-- ==== Proof.Region0.lean ====
/-
  Region 0: what the first matrix-product kernel leaves in its output array.

  The grid has 20 points; point t reads rows 5000·t … 5000·t + 4999 of the left matrix (all 128 columns) and the
  whole [128,128] weight matrix, and writes the same rows of the output. Entry (p, q) of what it writes is
  ∑ k, x (p, k) · w (k, q), which is entry (5000·t + p, q) of the whole product  X · W  as the reference's
  matrix product states it. The 20 row blocks tile the output, so after the region the array IS  X · W.
-/
import proofs.«126483_j13597866459795_1_alg».proof.Proof.Gen.KernelIdeal.Frame
import proofs.«126483_j13597866459795_1_alg».proof.Proof.Gen.ReferenceIdeal.Read
import proofs.«126483_j13597866459795_1_alg».proof.Proof.Payloads

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-- Entry (p, q) of a row block's product is entry (5000·n + p, q) of the whole product, when the block holds
    rows 5000·n … of the left matrix and the right factor is the whole weight matrix. -/
theorem block_entry (X : FVec Ideal Cert.ReferenceIdeal.S100000x128 .f32) (W : FVec Ideal Cert.ReferenceIdeal.S128x128 .f32)
    (x : Vec Ideal S5000x128 .f32) (w : Vec Ideal S128x128 .f32) (j : S5000x128.Idx) (i : Cert.ReferenceIdeal.S100000x128.Idx) (n : Nat)
    (hi0 : (i 0).val = n * 5000 + (j 0).val) (hi1 : (i 1).val = (j 1).val)
    (hx : ∀ (y : S5000x128.Idx) (z : Cert.ReferenceIdeal.S100000x128.Idx), (z 0).val = n * 5000 + (y 0).val → (z 1).val = (y 1).val → x y = X z)
    (hw : ∀ (y : S128x128.Idx) (z : Cert.ReferenceIdeal.S128x128.Idx), (z 0).val = (y 0).val → (z 1).val = (y 1).val → w y = W z) :
    k0_pay1 x w j = Cert.ReferenceIdeal.Read.val_main_v27 (F := Ideal) X W i := by
  rw [Payloads.stored0, Cert.ReferenceIdeal.Read.val_main_v27_apply]
  refine Finset.sum_congr rfl fun k _ => ?_
  rw [hx (Payloads.sq_l j k) (Cert.ReferenceIdeal.Read.lidx_main_v27 i k) hi0 rfl,
    hw (Payloads.sq_r j k) (Cert.ReferenceIdeal.Read.ridx_main_v27 i k) rfl hi1]

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row blocks at block row t, the weight matrix whole. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000·t … of the whole product of the arrays the region finds. -/
theorem written (c : Dev nD) (t : Fin cfg0.N) :
    (dat0 V c).flushed 2 t = ((cfg0.win 2).blk t).view.read (Elt Ideal)
      (Cert.ReferenceIdeal.Read.val_main_v27 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_places t
  funext j
  show k0_pay1 (iblk0 V c 0 t) (iblk0 V c 1 t) j
    = Cert.ReferenceIdeal.Read.val_main_v27 (F := Ideal) (V c main_arg0) (V c main_arg2) (((cfg0.win 2).blk t).view.emb j)
  refine block_entry _ _ _ _ j _ t.val ?_ ?_ ?_ ?_
  · show win0_2.index t (0 : Fin 2) * 5000 + 1 * (j 0).val = t.val * 5000 + (j 0).val
    omega
  · show win0_2.index t (1 : Fin 2) * 128 + 1 * (j 1).val = (j 1).val
    omega
  · intro y z h0 h1
    show V c main_arg0 (((cfg0.win 0).blk t).view.emb y) = V c main_arg0 z
    refine congrArg _ (funext fun a => Fin.ext ?_)
    match a with
    | ⟨0, _⟩ => show win0_0.index t (0 : Fin 2) * 5000 + 1 * (y 0).val = (z 0).val; omega
    | ⟨1, _⟩ => show win0_0.index t (1 : Fin 2) * 128 + 1 * (y 1).val = (z 1).val; omega
  · intro y z h0 h1
    show V c main_arg2 (((cfg0.win 1).blk t).view.emb y) = V c main_arg2 z
    refine congrArg _ (funext fun a => Fin.ext ?_)
    match a with
    | ⟨0, _⟩ => show win0_1.index t (0 : Fin 2) * 128 + 1 * (y 0).val = (z 0).val; omega
    | ⟨1, _⟩ => show win0_1.index t (1 : Fin 2) * 128 + 1 * (y 1).val = (z 1).val; omega

/-- An entry of the output array lies in point t's block iff each coordinate lies in the block's range. -/
theorem in_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row r of the output is written by point r / 5000. -/
theorem tiled (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < 20; omega
  obtain ⟨e0, e1, e2, e3, e4, e5⟩ := block_places ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [in_block]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- After the region its output array is the whole matrix product of the two input arrays as the region found them. -/
theorem product (c : Dev nD) :
    (dat0 V c).arrAt 2 cfg0.N = Cert.ReferenceIdeal.Read.val_main_v27 (F := Ideal) (V c main_arg0) (V c main_arg2) :=
  (dat0 V c).arrAt_eq_of_cover 2 _ (fun t _ => written V c t) (tiled)

end Cert.KernelIdeal.Region0

end
-- ==== Proof.Region1.lean ====
/-
  Region 1: what the second matrix-product kernel leaves in its output array.

  The grid has 20 points; point t reads rows 5000·t … 5000·t + 4999 of the left matrix (all 128 columns) and the
  whole [128,128] weight matrix, and writes the same rows of the output. Entry (p, q) of what it writes is
  ∑ k, x (p, k) · w (k, q), which is entry (5000·t + p, q) of the whole product  X · W  as the reference's
  matrix product states it. The 20 row blocks tile the output, so after the region the array IS  X · W.
-/
import proofs.«126483_j13597866459795_1_alg».proof.Proof.Gen.KernelIdeal.Frame
import proofs.«126483_j13597866459795_1_alg».proof.Proof.Gen.ReferenceIdeal.Read
import proofs.«126483_j13597866459795_1_alg».proof.Proof.Payloads

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

/-- Entry (p, q) of a row block's product is entry (5000·n + p, q) of the whole product, when the block holds
    rows 5000·n … of the left matrix and the right factor is the whole weight matrix. -/
theorem block_entry (X : FVec Ideal Cert.ReferenceIdeal.S100000x128 .f32) (W : FVec Ideal Cert.ReferenceIdeal.S128x128 .f32)
    (x : Vec Ideal S5000x128 .f32) (w : Vec Ideal S128x128 .f32) (j : S5000x128.Idx) (i : Cert.ReferenceIdeal.S100000x128.Idx) (n : Nat)
    (hi0 : (i 0).val = n * 5000 + (j 0).val) (hi1 : (i 1).val = (j 1).val)
    (hx : ∀ (y : S5000x128.Idx) (z : Cert.ReferenceIdeal.S100000x128.Idx), (z 0).val = n * 5000 + (y 0).val → (z 1).val = (y 1).val → x y = X z)
    (hw : ∀ (y : S128x128.Idx) (z : Cert.ReferenceIdeal.S128x128.Idx), (z 0).val = (y 0).val → (z 1).val = (y 1).val → w y = W z) :
    k1_pay1 x w j = Cert.ReferenceIdeal.Read.val_main_v27 (F := Ideal) X W i := by
  rw [Payloads.stored1, Cert.ReferenceIdeal.Read.val_main_v27_apply]
  refine Finset.sum_congr rfl fun k _ => ?_
  rw [hx (Payloads.sq_l j k) (Cert.ReferenceIdeal.Read.lidx_main_v27 i k) hi0 rfl,
    hw (Payloads.sq_r j k) (Cert.ReferenceIdeal.Read.ridx_main_v27 i k) rfl hi1]

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row blocks at block row t, the weight matrix whole. -/
theorem block_places : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000·t … of the whole product of the arrays the region finds. -/
theorem written (c : Dev nD) (t : Fin cfg1.N) :
    (dat1 V c).flushed 2 t = ((cfg1.win 2).blk t).view.read (Elt Ideal)
      (Cert.ReferenceIdeal.Read.val_main_v27 (F := Ideal) (V c main_v44) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := block_places t
  funext j
  show k1_pay1 (iblk1 V c 0 t) (iblk1 V c 1 t) j
    = Cert.ReferenceIdeal.Read.val_main_v27 (F := Ideal) (V c main_v44) (V c main_arg4) (((cfg1.win 2).blk t).view.emb j)
  refine block_entry _ _ _ _ j _ t.val ?_ ?_ ?_ ?_
  · show win1_2.index t (0 : Fin 2) * 5000 + 1 * (j 0).val = t.val * 5000 + (j 0).val
    omega
  · show win1_2.index t (1 : Fin 2) * 128 + 1 * (j 1).val = (j 1).val
    omega
  · intro y z h0 h1
    show V c main_v44 (((cfg1.win 0).blk t).view.emb y) = V c main_v44 z
    refine congrArg _ (funext fun a => Fin.ext ?_)
    match a with
    | ⟨0, _⟩ => show win1_0.index t (0 : Fin 2) * 5000 + 1 * (y 0).val = (z 0).val; omega
    | ⟨1, _⟩ => show win1_0.index t (1 : Fin 2) * 128 + 1 * (y 1).val = (z 1).val; omega
  · intro y z h0 h1
    show V c main_arg4 (((cfg1.win 1).blk t).view.emb y) = V c main_arg4 z
    refine congrArg _ (funext fun a => Fin.ext ?_)
    match a with
    | ⟨0, _⟩ => show win1_1.index t (0 : Fin 2) * 128 + 1 * (y 0).val = (z 0).val; omega
    | ⟨1, _⟩ => show win1_1.index t (1 : Fin 2) * 128 + 1 * (y 1).val = (z 1).val; omega

/-- An entry of the output array lies in point t's block iff each coordinate lies in the block's range. -/
theorem in_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the output is written by point r / 5000. -/
theorem tiled (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by show (i 0).val / 5000 < 20; omega
  obtain ⟨e0, e1, e2, e3, e4, e5⟩ := block_places ⟨(i 0).val / 5000, hN⟩
  have e4' : win1_2.index ⟨(i 0).val / 5000, hN⟩ (0 : Fin 2) = (i 0).val / 5000 := e4
  refine ⟨⟨(i 0).val / 5000, hN⟩, flush1_2 _, ?_⟩
  rw [in_block]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-- After the region its output array is the whole matrix product of the two input arrays as the region found them. -/
theorem product (c : Dev nD) :
    (dat1 V c).arrAt 2 cfg1.N = Cert.ReferenceIdeal.Read.val_main_v27 (F := Ideal) (V c main_v44) (V c main_arg4) :=
  (dat1 V c).arrAt_eq_of_cover 2 _ (fun t _ => written V c t) (tiled)

end Cert.KernelIdeal.Region1

end
-- ==== Proof.Region2.lean ====
/-
  Region 2: what the third kernel (matrix product with a weight column, plus a bias) leaves in its output array.

  Point t of the 20 reads rows 5000·t … 5000·t + 4999 of the hidden features, the whole [128,1] weight column and the
  one-entry bias, and writes the same rows of the [100000,1] output. Entry (p, 0) of what it writes is
  ∑ k, h (p, k) · w (k, 0) + b, which is entry (5000·t + p, 0) of  h · w + b  as the reference states it: its
  matrix product, plus its bias broadcast down the rows. The 20 blocks tile the output, so after the region the
  array is that sum.
-/
import proofs.«126483_j13597866459795_1_alg».proof.Proof.Gen.KernelIdeal.Frame
import proofs.«126483_j13597866459795_1_alg».proof.Proof.Gen.ReferenceIdeal.Read
import proofs.«126483_j13597866459795_1_alg».proof.Proof.Payloads

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)

/-- The reference's product of a [100000,128] matrix with a [128,1] column, at an entry: the sum over the contracted
    coordinate, for ANY two operands. -/
theorem column_product (X : FVec Ideal Cert.ReferenceIdeal.S100000x128 .f32) (W : FVec Ideal Cert.ReferenceIdeal.S128x1 .f32) (i : Cert.ReferenceIdeal.S100000x1.Idx) :
    Host.dotGeneral Cert.ReferenceIdeal.dot_S100000x128_S128x1_S100000x1_1_0_0_1_n_n none X W i = ∑ k : Fin 128, X (Cert.ReferenceIdeal.Read.lidx_main_v63 i k) * W (Cert.ReferenceIdeal.Read.ridx_main_v63 i k) := by
  simp only [Host.dotGeneral]
  rw [Ideal.dotGeneral_apply, ← Equiv.sum_comp (ValueIdx.contrEquiv1 Cert.ReferenceIdeal.dot_S100000x128_S128x1_S100000x1_1_0_0_1_n_n 128 rfl rfl).symm]
  refine Finset.sum_congr rfl fun k _ => ?_
  have hk := ValueIdx.contrEquiv1_symm_val Cert.ReferenceIdeal.dot_S100000x128_S128x1_S100000x1_1_0_0_1_n_n 128 rfl rfl k
  have el : Cert.ReferenceIdeal.dot_S100000x128_S128x1_S100000x1_1_0_0_1_n_n.lhsIdx i ((ValueIdx.contrEquiv1 Cert.ReferenceIdeal.dot_S100000x128_S128x1_S100000x1_1_0_0_1_n_n 128 rfl rfl).symm k) = Cert.ReferenceIdeal.Read.lidx_main_v63 i k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : Cert.ReferenceIdeal.dot_S100000x128_S128x1_S100000x1_1_0_0_1_n_n.rhsIdx i ((ValueIdx.contrEquiv1 Cert.ReferenceIdeal.dot_S100000x128_S128x1_S100000x1_1_0_0_1_n_n 128 rfl rfl).symm k) = Cert.ReferenceIdeal.Read.ridx_main_v63 i k := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The whole-array function the region computes: the product, plus the bias on every row. -/
def biased (X : FVec Ideal Cert.ReferenceIdeal.S100000x128 .f32) (W : FVec Ideal Cert.ReferenceIdeal.S128x1 .f32) (a7 : FVec Ideal Cert.ReferenceIdeal.S1 .f32) :
    FVec Ideal Cert.ReferenceIdeal.S100000x1 .f32 :=
  addf (Host.dotGeneral Cert.ReferenceIdeal.dot_S100000x128_S128x1_S100000x1_1_0_0_1_n_n none X W) (Cert.ReferenceIdeal.Read.val_main_v65 (F := Ideal) a7)

theorem biased_apply (X : FVec Ideal Cert.ReferenceIdeal.S100000x128 .f32) (W : FVec Ideal Cert.ReferenceIdeal.S128x1 .f32) (a7 : FVec Ideal Cert.ReferenceIdeal.S1 .f32)
    (i : Cert.ReferenceIdeal.S100000x1.Idx) :
    biased X W a7 i = (∑ k : Fin 128, X (Cert.ReferenceIdeal.Read.lidx_main_v63 i k) * W (Cert.ReferenceIdeal.Read.ridx_main_v63 i k))
      + a7 (Cert.ReferenceIdeal.Read.idx_main_v64 (Cert.ReferenceIdeal.Read.idx_main_v65 i)) := by
  unfold biased
  refine (ValueIdx.addf_apply (s := Cert.ReferenceIdeal.S100000x1) (φ := .f32) _ _ i).trans ?_
  rw [column_product, Cert.ReferenceIdeal.Read.val_main_v65_apply, Cert.ReferenceIdeal.Read.val_main_v64_apply]

/-- Entry (p, 0) of a row block's product plus the bias is entry (5000·n + p, 0) of the whole biased product, when the
    block holds rows 5000·n … of the left matrix. -/
theorem block_entry (X : FVec Ideal Cert.ReferenceIdeal.S100000x128 .f32) (W : FVec Ideal Cert.ReferenceIdeal.S128x1 .f32) (a7 : FVec Ideal Cert.ReferenceIdeal.S1 .f32)
    (x : Vec Ideal S5000x128 .f32) (w : Vec Ideal S128x1 .f32) (b : Vec Ideal S1x1 .f32)
    (j : S5000x1.Idx) (i : Cert.ReferenceIdeal.S100000x1.Idx) (n : Nat)
    (hi0 : (i 0).val = n * 5000 + (j 0).val) (hi1 : (i 1).val = (j 1).val)
    (hx : ∀ (y : S5000x128.Idx) (z : Cert.ReferenceIdeal.S100000x128.Idx), (z 0).val = n * 5000 + (y 0).val → (z 1).val = (y 1).val → x y = X z)
    (hw : ∀ (y : S128x1.Idx) (z : Cert.ReferenceIdeal.S128x1.Idx), (z 0).val = (y 0).val → (z 1).val = (y 1).val → w y = W z)
    (hb : b Payloads.only = a7 (Cert.ReferenceIdeal.Read.idx_main_v64 (Cert.ReferenceIdeal.Read.idx_main_v65 i))) :
    k2_pay1 x w b j = biased X W a7 i := by
  rw [Payloads.stored2, biased_apply, hb]
  refine congrArg (· + a7 (Cert.ReferenceIdeal.Read.idx_main_v64 (Cert.ReferenceIdeal.Read.idx_main_v65 i))) ?_
  refine Finset.sum_congr rfl fun k _ => ?_
  rw [hx (Payloads.col_l j k) (Cert.ReferenceIdeal.Read.lidx_main_v63 i k) hi0 rfl,
    hw (Payloads.col_r j k) (Cert.ReferenceIdeal.Read.ridx_main_v63 i k) rfl hi1]

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row blocks at block row t, the weight column and the bias whole. -/
theorem block_places : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (a7 : FVec Ideal Cert.ReferenceIdeal.S1 .f32) (c : Dev nD)
  (hB : V c main_v63 = shapeCast S1x1 a7 shapeCasts_S1_S1x1)
include hB

/-- The bias block's one entry is the bias. -/
theorem bias_entry (t : Fin cfg2.N) (z : Cert.ReferenceIdeal.S1.Idx) : iblk2 V c 2 t Payloads.only = a7 z := by
  obtain ⟨e0, e1, e2, e3, e4, e5, e6, e7⟩ := block_places t
  show V c main_v63 (((cfg2.win 2).blk t).view.emb Payloads.only) = _
  rw [hB]
  refine shapeCast_apply a7 shapeCasts_S1_S1x1 _ z ?_
  have hz : (z 0).val < 1 := (z 0).isLt
  rewrite [Shape.rowMajor_val_two, Shape.rowMajor_val_one]
  show (z 0).val = (win2_2.index t (0 : Fin 2) * 1 + 1 * 0) * 1 + (win2_2.index t (1 : Fin 2) * 1 + 1 * 0)
  omega

/-- What point t writes back is rows 5000·t … of the whole biased product of the arrays the region finds. -/
theorem written (t : Fin cfg2.N) :
    (dat2 V c).flushed 3 t = ((cfg2.win 3).blk t).view.read (Elt Ideal) (biased (V c main_v62) (V c main_arg6) a7) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x1) origin, View.ld_unit_zero (S := S1x1) origin]
  obtain ⟨e0, e1, e2, e3, e4, e5, e6, e7⟩ := block_places t
  funext j
  show k2_pay1 (iblk2 V c 0 t) (iblk2 V c 1 t) (iblk2 V c 2 t) j
    = biased (V c main_v62) (V c main_arg6) a7 (((cfg2.win 3).blk t).view.emb j)
  refine block_entry _ _ a7 _ _ _ j _ t.val ?_ ?_ ?_ ?_ (bias_entry V a7 c hB t _)
  · show win2_3.index t (0 : Fin 2) * 5000 + 1 * (j 0).val = t.val * 5000 + (j 0).val
    omega
  · show win2_3.index t (1 : Fin 2) * 1 + 1 * (j 1).val = (j 1).val
    omega
  · intro y z h0 h1
    show V c main_v62 (((cfg2.win 0).blk t).view.emb y) = V c main_v62 z
    refine congrArg (V c main_v62) (funext fun a => Fin.ext ?_)
    match a with
    | ⟨0, _⟩ => show win2_0.index t (0 : Fin 2) * 5000 + 1 * (y 0).val = (z 0).val; omega
    | ⟨1, _⟩ => show win2_0.index t (1 : Fin 2) * 128 + 1 * (y 1).val = (z 1).val; omega
  · intro y z h0 h1
    show V c main_arg6 (((cfg2.win 1).blk t).view.emb y) = V c main_arg6 z
    refine congrArg (V c main_arg6) (funext fun a => Fin.ext ?_)
    match a with
    | ⟨0, _⟩ => show win2_1.index t (0 : Fin 2) * 128 + 1 * (y 0).val = (z 0).val; omega
    | ⟨1, _⟩ => show win2_1.index t (1 : Fin 2) * 1 + 1 * (y 1).val = (z 1).val; omega

/-- Row r of the output is written by point r / 5000. -/
theorem tiled (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hN : (i 0).val / 5000 < cfg2.N := by show (i 0).val / 5000 < 20; omega
  obtain ⟨e0, e1, e2, e3, e4, e5, e6, e7⟩ := block_places ⟨(i 0).val / 5000, hN⟩
  have e6' : win2_3.index ⟨(i 0).val / 5000, hN⟩ (0 : Fin 2) = (i 0).val / 5000 := e6
  refine ⟨⟨(i 0).val / 5000, hN⟩, flush2_3 _, ?_⟩
  show i ∈ ((View.whole main_v64).slice (win2_3.rect ⟨(i 0).val / 5000, hN⟩)).set
  rw [View.set_slice_whole, Rect.mem_set_unit]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; omega
  | ⟨1, _⟩ => show win2_3.index ⟨(i 0).val / 5000, hN⟩ (1 : Fin 2) * 1 ≤ (i 1).val ∧ (i 1).val < win2_3.index ⟨(i 0).val / 5000, hN⟩ (1 : Fin 2) * 1 + 1; omega

/-- After the region its output array is the whole biased product of the arrays the region found. -/
theorem biased_product :
    (dat2 V c).arrAt 3 cfg2.N = biased (V c main_v62) (V c main_arg6) a7 :=
  (dat2 V c).arrAt_eq_of_cover 3 _ (fun t _ => written V a7 c hB t) (tiled V a7 c hB)
end

end Cert.KernelIdeal.Region2

end
-- ==== Proof.Stretches.lean ====
/-
  The stretches of host operations between the kernel regions, read at the buffers that later steps use.

  Each stretch is a straight line of array operations, so the contents it leaves in a buffer are the operations'
  composed term of the contents it started from. Both programs run the same host operations; the kernel's
  program only replaces the three matrix products by regions. So, started from contents that agree with the
  reference's stages (the product, the edge lists with their self loops, the edge weights), a stretch leaves the
  reference's next stage:
    · stretch 0 builds the source and target lists (edges, then one self loop per node) and the edge weights
      rsqrt(deg src) · rsqrt(deg dst), where deg counts the edges into a node;
    · stretches 1 and 2 are one aggregation each:  relu (scatter-add over targets of (row src of the product) · weight, + bias);
      stretch 2 also reshapes the one-entry bias of the last layer to [1,1];
    · stretch 3 drops the unit axis of the last region's [100000,1] output.
  Buffers a stretch does not write keep their contents.
-/
import proofs.«126483_j13597866459795_1_alg».proof.Proof.Gen.KernelIdeal.Launch
import proofs.«126483_j13597866459795_1_alg».proof.Proof.Gen.ReferenceIdeal.Read
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo

variable (V : Valuation τ sig (Elt Ideal))

/-! ## A called function's operations move values between a buffer's own type and the value's type; at a literal buffer the move is the identity -/

/-- A value moved to a buffer's own type and back is unchanged. -/
theorem ofBuf_toBuf {T : BufTy} (x : TRef sig T) (v : T.Contents (Elt Ideal)) : x.ofBuf (x.toBuf v) = v := by
  obtain ⟨r, hty, hd, hs⟩ := x
  subst hty
  rfl
/-- Moving a value to a buffer's own type does not change it. -/
theorem toBuf_heq {T : BufTy} (x : TRef sig T) (v : T.Contents (Elt Ideal)) : HEq (x.toBuf v) v := cast_heq _ _
theorem ofBuf_heq {T : BufTy} (x : TRef sig T) (v : x.ref.ty.Contents (Elt Ideal)) : HEq (x.ofBuf v) v := cast_heq _ _

/-! ## Stretch 0: the edge lists and the edge weights -/

theorem sources : StableHlo.after hostOps0 V (Proc.devRef .tc main_v3) = Cert.ReferenceIdeal.Read.val_main_v3 (F := Ideal) (V (Proc.devRef .tc main_arg1)) := by
  after_results <;> rfl
theorem targets : StableHlo.after hostOps0 V (Proc.devRef .tc main_v6) = Cert.ReferenceIdeal.Read.val_main_v6 (F := Ideal) (V (Proc.devRef .tc main_arg1)) := by
  after_results <;> rfl
/-- Running a line in two parts: the second part from where the first ends. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The stretch's first seven operations build the two edge lists. -/
theorem head_sources : StableHlo.after (List.take 7 hostOps0) V (Proc.devRef .tc main_v3) = Cert.ReferenceIdeal.Read.val_main_v3 (F := Ideal) (V (Proc.devRef .tc main_arg1)) := by
  simp only [hostOps0, List.take_succ_cons, List.take_zero]
  after_results <;> rfl
theorem head_targets : StableHlo.after (List.take 7 hostOps0) V (Proc.devRef .tc main_v6) = Cert.ReferenceIdeal.Read.val_main_v6 (F := Ideal) (V (Proc.devRef .tc main_arg1)) := by
  simp only [hostOps0, List.take_succ_cons, List.take_zero]
  after_results <;> rfl

set_option maxHeartbeats 4000000 in
/-- The rest of the stretch turns the two lists into the edge weights: the degree of a node is the number of
    edges into it, and an edge's weight is rsqrt (deg source) · rsqrt (deg target). -/
theorem weights_tail (W : Valuation τ sig (Elt Ideal)) (a1 : IVec Cert.ReferenceIdeal.S2x1600000 32)
    (hs : W (Proc.devRef .tc main_v3) = Cert.ReferenceIdeal.Read.val_main_v3 (F := Ideal) a1) (ht : W (Proc.devRef .tc main_v6) = Cert.ReferenceIdeal.Read.val_main_v6 (F := Ideal) a1) :
    StableHlo.after (List.drop 7 hostOps0) W (Proc.devRef .tc main_v26) = Cert.ReferenceIdeal.Read.val_main_v26 (F := Ideal) a1 := by
  simp only [hostOps0, List.drop_succ_cons, List.drop_zero]
  after_results_simp
  rw [hs, ht]
  rfl

theorem weights : StableHlo.after hostOps0 V (Proc.devRef .tc main_v26) = Cert.ReferenceIdeal.Read.val_main_v26 (F := Ideal) (V (Proc.devRef .tc main_arg1)) := by
  have e : StableHlo.after hostOps0 V
      = StableHlo.after (List.drop 7 hostOps0) (StableHlo.after (List.take 7 hostOps0) V) := by
    rw [← after_append, List.take_append_drop]
  rw [e]
  exact weights_tail (StableHlo.after (List.take 7 hostOps0) V) _ (head_sources V) (head_targets V)
theorem keep0_arg0 : StableHlo.after hostOps0 V (Proc.devRef .tc main_arg0) = V (Proc.devRef .tc main_arg0) := by
  after_results <;> rfl
theorem keep0_arg2 : StableHlo.after hostOps0 V (Proc.devRef .tc main_arg2) = V (Proc.devRef .tc main_arg2) := by
  after_results <;> rfl
theorem keep0_arg3 : StableHlo.after hostOps0 V (Proc.devRef .tc main_arg3) = V (Proc.devRef .tc main_arg3) := by
  after_results <;> rfl
theorem keep0_arg4 : StableHlo.after hostOps0 V (Proc.devRef .tc main_arg4) = V (Proc.devRef .tc main_arg4) := by
  after_results <;> rfl
theorem keep0_arg5 : StableHlo.after hostOps0 V (Proc.devRef .tc main_arg5) = V (Proc.devRef .tc main_arg5) := by
  after_results <;> rfl
theorem keep0_arg6 : StableHlo.after hostOps0 V (Proc.devRef .tc main_arg6) = V (Proc.devRef .tc main_arg6) := by
  after_results <;> rfl
theorem keep0_arg7 : StableHlo.after hostOps0 V (Proc.devRef .tc main_arg7) = V (Proc.devRef .tc main_arg7) := by
  after_results <;> rfl

/-! ## Stretch 1: the first aggregation -/

section
variable (a0 : FVec Ideal Cert.ReferenceIdeal.S100000x128 .f32) (a1 : IVec Cert.ReferenceIdeal.S2x1600000 32) (a2 : FVec Ideal Cert.ReferenceIdeal.S128x128 .f32)
  (a3 : FVec Ideal Cert.ReferenceIdeal.S128 .f32) (a4 : FVec Ideal Cert.ReferenceIdeal.S128x128 .f32) (a5 : FVec Ideal Cert.ReferenceIdeal.S128 .f32)
  (a6 : FVec Ideal Cert.ReferenceIdeal.S128x1 .f32) (a7 : FVec Ideal Cert.ReferenceIdeal.S1 .f32)

set_option maxHeartbeats 4000000 in
/-- The aggregation itself: gather the product's source rows, scale by the edge weights, add up per target, add the bias. -/
theorem aggregate1 (hp : V (Proc.devRef .tc main_v27) = Cert.ReferenceIdeal.Read.val_main_v27 (F := Ideal) a0 a2)
    (hs : V (Proc.devRef .tc main_v3) = Cert.ReferenceIdeal.Read.val_main_v3 (F := Ideal) a1) (ht : V (Proc.devRef .tc main_v6) = Cert.ReferenceIdeal.Read.val_main_v6 (F := Ideal) a1)
    (hw : V (Proc.devRef .tc main_v26) = Cert.ReferenceIdeal.Read.val_main_v26 (F := Ideal) a1) (hb : V (Proc.devRef .tc main_arg3) = a3) :
    StableHlo.after hostOps1 V (Proc.devRef .tc main_v43) = Cert.ReferenceIdeal.Read.val_main_v43 (F := Ideal) a0 a1 a2 a3 := by
  after_results_simp
  rw [hp, hs, ht, hw, hb]
  rfl

/-- Then the relu: the maximum with zero. -/
theorem relu1 (W : Valuation τ sig (Elt Ideal)) (h : W (Proc.devRef .tc main_v43) = Cert.ReferenceIdeal.Read.val_main_v43 (F := Ideal) a0 a1 a2 a3) :
    StableHlo.after hostOps1_1 W (Proc.devRef .tc main_v44) = Cert.ReferenceIdeal.Read.val_main_v44 (F := Ideal) a0 a1 a2 a3 := by
  after_results
  rw [h, ofBuf_toBuf, ofBuf_toBuf]
  refine (eq_of_heq (toBuf_heq _ _)).trans ?_
  have e : ∀ Y : (⟨S100000x128, .f32⟩ : BufTy).Contents (Elt Ideal),
      (TRef.of main_v43 : TRef sig ⟨S100000x128, .f32⟩).ofBuf Y = Y := fun Y => eq_of_heq (ofBuf_heq _ _)
  rw [e]
  rfl

theorem hidden1 (hp : V (Proc.devRef .tc main_v27) = Cert.ReferenceIdeal.Read.val_main_v27 (F := Ideal) a0 a2)
    (hs : V (Proc.devRef .tc main_v3) = Cert.ReferenceIdeal.Read.val_main_v3 (F := Ideal) a1) (ht : V (Proc.devRef .tc main_v6) = Cert.ReferenceIdeal.Read.val_main_v6 (F := Ideal) a1)
    (hw : V (Proc.devRef .tc main_v26) = Cert.ReferenceIdeal.Read.val_main_v26 (F := Ideal) a1) (hb : V (Proc.devRef .tc main_arg3) = a3) :
    StableHlo.after hostOps1_1 (StableHlo.after hostOps1 V) (Proc.devRef .tc main_v44) = Cert.ReferenceIdeal.Read.val_main_v44 (F := Ideal) a0 a1 a2 a3 :=
  relu1 a0 a1 a2 a3 (StableHlo.after hostOps1 V) (aggregate1 V a0 a1 a2 a3 hp hs ht hw hb)
end
theorem keep1_v3 : StableHlo.after hostOps1_1 (StableHlo.after hostOps1 V) (Proc.devRef .tc main_v3) = V (Proc.devRef .tc main_v3) := by
  after_results <;> rfl
theorem keep1_v6 : StableHlo.after hostOps1_1 (StableHlo.after hostOps1 V) (Proc.devRef .tc main_v6) = V (Proc.devRef .tc main_v6) := by
  after_results <;> rfl
theorem keep1_v26 : StableHlo.after hostOps1_1 (StableHlo.after hostOps1 V) (Proc.devRef .tc main_v26) = V (Proc.devRef .tc main_v26) := by
  after_results <;> rfl
theorem keep1_arg4 : StableHlo.after hostOps1_1 (StableHlo.after hostOps1 V) (Proc.devRef .tc main_arg4) = V (Proc.devRef .tc main_arg4) := by
  after_results <;> rfl
theorem keep1_arg5 : StableHlo.after hostOps1_1 (StableHlo.after hostOps1 V) (Proc.devRef .tc main_arg5) = V (Proc.devRef .tc main_arg5) := by
  after_results <;> rfl
theorem keep1_arg6 : StableHlo.after hostOps1_1 (StableHlo.after hostOps1 V) (Proc.devRef .tc main_arg6) = V (Proc.devRef .tc main_arg6) := by
  after_results <;> rfl
theorem keep1_arg7 : StableHlo.after hostOps1_1 (StableHlo.after hostOps1 V) (Proc.devRef .tc main_arg7) = V (Proc.devRef .tc main_arg7) := by
  after_results <;> rfl

/-! ## Stretch 2: the second aggregation, and the last layer's bias as a [1,1] array -/

section
variable (a0 : FVec Ideal Cert.ReferenceIdeal.S100000x128 .f32) (a1 : IVec Cert.ReferenceIdeal.S2x1600000 32) (a2 : FVec Ideal Cert.ReferenceIdeal.S128x128 .f32)
  (a3 : FVec Ideal Cert.ReferenceIdeal.S128 .f32) (a4 : FVec Ideal Cert.ReferenceIdeal.S128x128 .f32) (a5 : FVec Ideal Cert.ReferenceIdeal.S128 .f32)
  (a6 : FVec Ideal Cert.ReferenceIdeal.S128x1 .f32) (a7 : FVec Ideal Cert.ReferenceIdeal.S1 .f32)

set_option maxHeartbeats 4000000 in
/-- The second aggregation, of the second product. -/
theorem aggregate2 (hp : V (Proc.devRef .tc main_v45) = Cert.ReferenceIdeal.Read.val_main_v45 (F := Ideal) a0 a1 a2 a3 a4)
    (hs : V (Proc.devRef .tc main_v3) = Cert.ReferenceIdeal.Read.val_main_v3 (F := Ideal) a1) (ht : V (Proc.devRef .tc main_v6) = Cert.ReferenceIdeal.Read.val_main_v6 (F := Ideal) a1)
    (hw : V (Proc.devRef .tc main_v26) = Cert.ReferenceIdeal.Read.val_main_v26 (F := Ideal) a1) (hb : V (Proc.devRef .tc main_arg5) = a5) :
    StableHlo.after hostOps2 V (Proc.devRef .tc main_v61) = Cert.ReferenceIdeal.Read.val_main_v61 (F := Ideal) a0 a1 a2 a3 a4 a5 := by
  after_results_simp
  rw [hp, hs, ht, hw, hb]
  rfl

/-- Its relu. -/
theorem relu2 (W : Valuation τ sig (Elt Ideal)) (h : W (Proc.devRef .tc main_v61) = Cert.ReferenceIdeal.Read.val_main_v61 (F := Ideal) a0 a1 a2 a3 a4 a5) :
    StableHlo.after hostOps2_1 W (Proc.devRef .tc main_v62) = Cert.ReferenceIdeal.Read.val_main_v62 (F := Ideal) a0 a1 a2 a3 a4 a5 := by
  after_results
  rw [h, ofBuf_toBuf, ofBuf_toBuf]
  refine (eq_of_heq (toBuf_heq _ _)).trans ?_
  have e : ∀ Y : (⟨S100000x128, .f32⟩ : BufTy).Contents (Elt Ideal),
      (TRef.of main_v61 : TRef sig ⟨S100000x128, .f32⟩).ofBuf Y = Y := fun Y => eq_of_heq (ofBuf_heq _ _)
  rw [e]
  rfl

/-- Reshaping the last bias does not touch the hidden layer. -/
theorem reshape_keeps (W : Valuation τ sig (Elt Ideal)) :
    StableHlo.after hostOps2_2 W (Proc.devRef .tc main_v62) = W (Proc.devRef .tc main_v62) := by
  after_results <;> rfl

theorem hidden2 (hp : V (Proc.devRef .tc main_v45) = Cert.ReferenceIdeal.Read.val_main_v45 (F := Ideal) a0 a1 a2 a3 a4)
    (hs : V (Proc.devRef .tc main_v3) = Cert.ReferenceIdeal.Read.val_main_v3 (F := Ideal) a1) (ht : V (Proc.devRef .tc main_v6) = Cert.ReferenceIdeal.Read.val_main_v6 (F := Ideal) a1)
    (hw : V (Proc.devRef .tc main_v26) = Cert.ReferenceIdeal.Read.val_main_v26 (F := Ideal) a1) (hb : V (Proc.devRef .tc main_arg5) = a5) :
    StableHlo.after hostOps2_2 (StableHlo.after hostOps2_1 (StableHlo.after hostOps2 V)) (Proc.devRef .tc main_v62) = Cert.ReferenceIdeal.Read.val_main_v62 (F := Ideal) a0 a1 a2 a3 a4 a5 :=
  (reshape_keeps _).trans
    (relu2 a0 a1 a2 a3 a4 a5 (StableHlo.after hostOps2 V) (aggregate2 V a0 a1 a2 a3 a4 a5 hp hs ht hw hb))

theorem bias_cell (hb : V (Proc.devRef .tc main_arg7) = a7) :
    StableHlo.after hostOps2_2 (StableHlo.after hostOps2_1 (StableHlo.after hostOps2 V)) (Proc.devRef .tc main_v63) = shapeCast S1x1 a7 shapeCasts_S1_S1x1 := by
  after_results
  rw [hb]
  rfl
end
theorem keep2_arg6 : StableHlo.after hostOps2_2 (StableHlo.after hostOps2_1 (StableHlo.after hostOps2 V)) (Proc.devRef .tc main_arg6) = V (Proc.devRef .tc main_arg6) := by
  after_results <;> rfl

/-! ## Stretch 3: the result without its unit axis -/

section
variable (a0 : FVec Ideal Cert.ReferenceIdeal.S100000x128 .f32) (a1 : IVec Cert.ReferenceIdeal.S2x1600000 32) (a2 : FVec Ideal Cert.ReferenceIdeal.S128x128 .f32)
  (a3 : FVec Ideal Cert.ReferenceIdeal.S128 .f32) (a4 : FVec Ideal Cert.ReferenceIdeal.S128x128 .f32) (a5 : FVec Ideal Cert.ReferenceIdeal.S128 .f32)
  (a6 : FVec Ideal Cert.ReferenceIdeal.S128x1 .f32) (a7 : FVec Ideal Cert.ReferenceIdeal.S1 .f32)

theorem result (hp : V (Proc.devRef .tc main_v64) = Cert.ReferenceIdeal.Read.val_main_v66 (F := Ideal) a0 a1 a2 a3 a4 a5 a6 a7) :
    StableHlo.after hostOps3 V (Proc.devRef .tc main_v65) = Cert.ReferenceIdeal.Read.val_main_v67 (F := Ideal) a0 a1 a2 a3 a4 a5 a6 a7 := by
  after_results
  rw [hp]
  rfl
end

end Cert.KernelIdeal.Stretches

end
-- ==== Proof.KernelValue.lean ====
/-
  The idealized kernel's result, as the reference's function of the arguments.

  The buffer contents at the boundaries of @main's run are followed from the launch to the return. At every
  boundary the buffers that later steps read hold the reference's stages of the launch arguments:
    boundary 1 (after the first host stretch): the source and target lists and the edge weights;
    boundary 2 (after the first region): also  x · W1  (the region's row blocks tile the whole product);
    boundary 4 (after the first aggregation): the first hidden layer;
    boundary 5 (after the second region): also  h1 · W2;
    boundary 8 (after the second aggregation): the second hidden layer, and the last bias as a [1,1] array;
    boundary 9 (after the third region):  h2 · Wout + bout;
    boundary 10 (the return): the same without its unit axis — the reference's result.
  Buffers a step does not write are carried along unchanged.
-/
import proofs.«126483_j13597866459795_1_alg».proof.Proof.Gen.KernelIdeal.Frame
import proofs.«126483_j13597866459795_1_alg».proof.Proof.Gen.ReferenceIdeal.Read
import proofs.«126483_j13597866459795_1_alg».proof.Proof.Region0
import proofs.«126483_j13597866459795_1_alg».proof.Proof.Region1
import proofs.«126483_j13597866459795_1_alg».proof.Proof.Region2
import proofs.«126483_j13597866459795_1_alg».proof.Proof.Stretches

set_option maxRecDepth 16384

noncomputable section

namespace Cert.KernelIdeal.Outcome

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The arguments, carried along -/

theorem at1_arg0 : W1 m ρ c (Proc.devRef .tc main_arg0) = (m ((c : Thread nD τ).loc main_arg0)) := Stretches.keep0_arg0 (W0 m ρ c)
theorem at1_arg2 : W1 m ρ c (Proc.devRef .tc main_arg2) = (m ((c : Thread nD τ).loc main_arg2)) := Stretches.keep0_arg2 (W0 m ρ c)
theorem at1_arg3 : W1 m ρ c (Proc.devRef .tc main_arg3) = (m ((c : Thread nD τ).loc main_arg3)) := Stretches.keep0_arg3 (W0 m ρ c)
theorem at2_arg3 : W2 m ρ c (Proc.devRef .tc main_arg3) = (m ((c : Thread nD τ).loc main_arg3)) := (W2_of_ne m ρ c main_arg3 (by decide)).trans (at1_arg3 m ρ c)
theorem at1_arg4 : W1 m ρ c (Proc.devRef .tc main_arg4) = (m ((c : Thread nD τ).loc main_arg4)) := Stretches.keep0_arg4 (W0 m ρ c)
theorem at2_arg4 : W2 m ρ c (Proc.devRef .tc main_arg4) = (m ((c : Thread nD τ).loc main_arg4)) := (W2_of_ne m ρ c main_arg4 (by decide)).trans (at1_arg4 m ρ c)
theorem at4_arg4 : W4 m ρ c (Proc.devRef .tc main_arg4) = (m ((c : Thread nD τ).loc main_arg4)) := (Stretches.keep1_arg4 (W2 m ρ c)).trans (at2_arg4 m ρ c)
theorem at1_arg5 : W1 m ρ c (Proc.devRef .tc main_arg5) = (m ((c : Thread nD τ).loc main_arg5)) := Stretches.keep0_arg5 (W0 m ρ c)
theorem at2_arg5 : W2 m ρ c (Proc.devRef .tc main_arg5) = (m ((c : Thread nD τ).loc main_arg5)) := (W2_of_ne m ρ c main_arg5 (by decide)).trans (at1_arg5 m ρ c)
theorem at4_arg5 : W4 m ρ c (Proc.devRef .tc main_arg5) = (m ((c : Thread nD τ).loc main_arg5)) := (Stretches.keep1_arg5 (W2 m ρ c)).trans (at2_arg5 m ρ c)
theorem at5_arg5 : W5 m ρ c (Proc.devRef .tc main_arg5) = (m ((c : Thread nD τ).loc main_arg5)) := (W5_of_ne m ρ c main_arg5 (by decide)).trans (at4_arg5 m ρ c)
theorem at1_arg6 : W1 m ρ c (Proc.devRef .tc main_arg6) = (m ((c : Thread nD τ).loc main_arg6)) := Stretches.keep0_arg6 (W0 m ρ c)
theorem at2_arg6 : W2 m ρ c (Proc.devRef .tc main_arg6) = (m ((c : Thread nD τ).loc main_arg6)) := (W2_of_ne m ρ c main_arg6 (by decide)).trans (at1_arg6 m ρ c)
theorem at4_arg6 : W4 m ρ c (Proc.devRef .tc main_arg6) = (m ((c : Thread nD τ).loc main_arg6)) := (Stretches.keep1_arg6 (W2 m ρ c)).trans (at2_arg6 m ρ c)
theorem at5_arg6 : W5 m ρ c (Proc.devRef .tc main_arg6) = (m ((c : Thread nD τ).loc main_arg6)) := (W5_of_ne m ρ c main_arg6 (by decide)).trans (at4_arg6 m ρ c)
theorem at1_arg7 : W1 m ρ c (Proc.devRef .tc main_arg7) = (m ((c : Thread nD τ).loc main_arg7)) := Stretches.keep0_arg7 (W0 m ρ c)
theorem at2_arg7 : W2 m ρ c (Proc.devRef .tc main_arg7) = (m ((c : Thread nD τ).loc main_arg7)) := (W2_of_ne m ρ c main_arg7 (by decide)).trans (at1_arg7 m ρ c)
theorem at4_arg7 : W4 m ρ c (Proc.devRef .tc main_arg7) = (m ((c : Thread nD τ).loc main_arg7)) := (Stretches.keep1_arg7 (W2 m ρ c)).trans (at2_arg7 m ρ c)
theorem at5_arg7 : W5 m ρ c (Proc.devRef .tc main_arg7) = (m ((c : Thread nD τ).loc main_arg7)) := (W5_of_ne m ρ c main_arg7 (by decide)).trans (at4_arg7 m ρ c)

/-! ## The edge lists and weights, carried along -/

theorem at1_sources : W1 m ρ c (Proc.devRef .tc main_v3) = Cert.ReferenceIdeal.Read.val_main_v3 (F := Ideal) (m ((c : Thread nD τ).loc main_arg1)) := Stretches.sources (W0 m ρ c)
theorem at2_sources : W2 m ρ c (Proc.devRef .tc main_v3) = Cert.ReferenceIdeal.Read.val_main_v3 (F := Ideal) (m ((c : Thread nD τ).loc main_arg1)) := (W2_of_ne m ρ c main_v3 (by decide)).trans (at1_sources m ρ c)
theorem at4_sources : W4 m ρ c (Proc.devRef .tc main_v3) = Cert.ReferenceIdeal.Read.val_main_v3 (F := Ideal) (m ((c : Thread nD τ).loc main_arg1)) := (Stretches.keep1_v3 (W2 m ρ c)).trans (at2_sources m ρ c)
theorem at5_sources : W5 m ρ c (Proc.devRef .tc main_v3) = Cert.ReferenceIdeal.Read.val_main_v3 (F := Ideal) (m ((c : Thread nD τ).loc main_arg1)) := (W5_of_ne m ρ c main_v3 (by decide)).trans (at4_sources m ρ c)
theorem at1_targets : W1 m ρ c (Proc.devRef .tc main_v6) = Cert.ReferenceIdeal.Read.val_main_v6 (F := Ideal) (m ((c : Thread nD τ).loc main_arg1)) := Stretches.targets (W0 m ρ c)
theorem at2_targets : W2 m ρ c (Proc.devRef .tc main_v6) = Cert.ReferenceIdeal.Read.val_main_v6 (F := Ideal) (m ((c : Thread nD τ).loc main_arg1)) := (W2_of_ne m ρ c main_v6 (by decide)).trans (at1_targets m ρ c)
theorem at4_targets : W4 m ρ c (Proc.devRef .tc main_v6) = Cert.ReferenceIdeal.Read.val_main_v6 (F := Ideal) (m ((c : Thread nD τ).loc main_arg1)) := (Stretches.keep1_v6 (W2 m ρ c)).trans (at2_targets m ρ c)
theorem at5_targets : W5 m ρ c (Proc.devRef .tc main_v6) = Cert.ReferenceIdeal.Read.val_main_v6 (F := Ideal) (m ((c : Thread nD τ).loc main_arg1)) := (W5_of_ne m ρ c main_v6 (by decide)).trans (at4_targets m ρ c)
theorem at1_weights : W1 m ρ c (Proc.devRef .tc main_v26) = Cert.ReferenceIdeal.Read.val_main_v26 (F := Ideal) (m ((c : Thread nD τ).loc main_arg1)) := Stretches.weights (W0 m ρ c)
theorem at2_weights : W2 m ρ c (Proc.devRef .tc main_v26) = Cert.ReferenceIdeal.Read.val_main_v26 (F := Ideal) (m ((c : Thread nD τ).loc main_arg1)) := (W2_of_ne m ρ c main_v26 (by decide)).trans (at1_weights m ρ c)
theorem at4_weights : W4 m ρ c (Proc.devRef .tc main_v26) = Cert.ReferenceIdeal.Read.val_main_v26 (F := Ideal) (m ((c : Thread nD τ).loc main_arg1)) := (Stretches.keep1_v26 (W2 m ρ c)).trans (at2_weights m ρ c)
theorem at5_weights : W5 m ρ c (Proc.devRef .tc main_v26) = Cert.ReferenceIdeal.Read.val_main_v26 (F := Ideal) (m ((c : Thread nD τ).loc main_arg1)) := (W5_of_ne m ρ c main_v26 (by decide)).trans (at4_weights m ρ c)

/-! ## The layers -/

/-- After the first region:  x · W1. -/
theorem at2_product : W2 m ρ c (Proc.devRef .tc main_v27) = Cert.ReferenceIdeal.Read.val_main_v27 (F := Ideal) (m ((c : Thread nD τ).loc main_arg0)) (m ((c : Thread nD τ).loc main_arg2)) :=
  (W2_arr m ρ c 2).trans ((Region0.product (V1 m ρ) c).trans (by
    rw [show V1 m ρ c main_arg0 = (m ((c : Thread nD τ).loc main_arg0)) from at1_arg0 m ρ c, show V1 m ρ c main_arg2 = (m ((c : Thread nD τ).loc main_arg2)) from at1_arg2 m ρ c]))

/-- After the first aggregation: the first hidden layer. -/
theorem at4_hidden : W4 m ρ c (Proc.devRef .tc main_v44) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) :=
  Stretches.hidden1 (W2 m ρ c) _ _ _ _ (at2_product m ρ c) (at2_sources m ρ c) (at2_targets m ρ c) (at2_weights m ρ c) (at2_arg3 m ρ c)

/-- After the second region:  h1 · W2. -/
theorem at5_product : W5 m ρ c (Proc.devRef .tc main_v45) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Region1.product (V4 m ρ) c).trans (by
    rw [show V4 m ρ c main_v44 = _ from at4_hidden m ρ c, show V4 m ρ c main_arg4 = (m ((c : Thread nD τ).loc main_arg4)) from at4_arg4 m ρ c]
    rfl))

/-- After the second aggregation: the second hidden layer, -/
theorem at8_hidden : W8 m ρ c (Proc.devRef .tc main_v62) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretches.hidden2 (W5 m ρ c) _ _ _ _ _ _ (at5_product m ρ c) (at5_sources m ρ c) (at5_targets m ρ c) (at5_weights m ρ c) (at5_arg5 m ρ c)

/-- the last bias as a [1,1] array, -/
theorem at8_bias : W8 m ρ c (Proc.devRef .tc main_v63) = shapeCast S1x1 (m ((c : Thread nD τ).loc main_arg7)) shapeCasts_S1_S1x1 :=
  Stretches.bias_cell (W5 m ρ c) _ (at5_arg7 m ρ c)

/-- and the last weight column as launched. -/
theorem at8_arg6 : W8 m ρ c (Proc.devRef .tc main_arg6) = (m ((c : Thread nD τ).loc main_arg6)) :=
  (Stretches.keep2_arg6 (W5 m ρ c)).trans (at5_arg6 m ρ c)

/-- After the third region:  h2 · Wout + bout. -/
theorem at9_out : W9 m ρ c (Proc.devRef .tc main_v64) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((Region2.biased_product (V8 m ρ) (m ((c : Thread nD τ).loc main_arg7)) c (at8_bias m ρ c)).trans (by
    rw [show V8 m ρ c main_v62 = _ from at8_hidden m ρ c, show V8 m ρ c main_arg6 = (m ((c : Thread nD τ).loc main_arg6)) from at8_arg6 m ρ c]
    rfl))

/-- At the return the result buffer holds the reference's function of the launch arguments. -/
theorem result_value : W10 m ρ c (Proc.devRef .tc main_v65) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretches.result (W9 m ρ c) _ _ _ _ _ _ _ _ (at9_out m ρ c)

end Cert.KernelIdeal.Outcome

end
-- ==== Proof.lean ====
/-
  The certificate of a two-layer graph convolution with a linear head, computed by three matrix-product kernels,
  against its plain reference — equal as extended reals at every node.

  Both programs compute, for node features x, an edge list and weights W1, b1, W2, b2, Wout, bout,
      h1 = relu (A (x · W1) + b1),   h2 = relu (A (h1 · W2) + b2),   out = h2 · Wout + bout,
  where A is the normalised adjacency with self loops: (A y) (v) = ∑ over edges u → v of y (u) · rsqrt(deg u) · rsqrt(deg v).
  The host operations that build A's edge lists and weights and apply it (gather, scale, scatter-add), the bias and
  the relu are the same operations in both programs. They differ only in the three matrix products: the reference
  takes each whole; the kernel takes each by blocks of 5000 rows (and adds the last bias inside the block). At the
  ideal values rounding a factor to bf16 changes nothing and a product is the plain sum over the contracted
  coordinate, so a row block of a product is the same rows of the whole product, and the 20 blocks tile it. Hence
  every intermediate array of the kernel's program is the reference's, and so is the result. No law of the extended
  reals beyond this re-indexing is used, so the finiteness of the inputs is never needed.

  `preserves` is trivial: the ideal pass rewrote nothing. The three frames are the generated ones (the reference's is
  its generated run with the result dropped).
-/
import proofs.«126483_j13597866459795_1_alg».proof.Defs
import proofs.«126483_j13597866459795_1_alg».proof.Proof.Gen.Kernel
import proofs.«126483_j13597866459795_1_alg».proof.Proof.Gen.Kernel.Frame
import proofs.«126483_j13597866459795_1_alg».proof.Proof.Gen.KernelIdeal
import proofs.«126483_j13597866459795_1_alg».proof.Proof.Gen.KernelIdeal.Frame
import proofs.«126483_j13597866459795_1_alg».proof.Proof.Gen.ReferenceIdeal
import proofs.«126483_j13597866459795_1_alg».proof.Proof.Gen.Pre_finite_inputs
import proofs.«126483_j13597866459795_1_alg».proof.Proof.Gen.ReferenceIdeal.Run
import proofs.«126483_j13597866459795_1_alg».proof.Proof.Gen.ReferenceIdeal.Read
import proofs.«126483_j13597866459795_1_alg».proof.Proof.KernelRun
import proofs.«126483_j13597866459795_1_alg».proof.Proof.KernelValue

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at ONE function of the launch arguments: the reference's composed stages. The
    kernel's run reaches it boundary by boundary; the reference's run states it outright. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Outcome.result_value m ρ c), (h c).2⟩)
      (Cert.KernelIdeal.Outcome.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v67_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
